-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S1024x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S1x512 : Shape := ⟨2, ![1, 512]⟩
abbrev S1024x512 : Shape := ⟨2, ![1024, 512]⟩

abbrev nBuf : Space → Nat
  | .hbm => 11
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1024x4096, .f32⟩
  | .local _ .vmem, ⟨0, _⟩ => ⟨S1024x4096, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_1_0_0_n_n_wf : DotDims.WF S1024x512 S512x512 S1024x512 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x512.size a ≤ S1024x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x4096.size a
  hwx0_7 : ∀ i : grid0.Coords, EltTy.bits .f32 = 32 ∨ (Rect.block (s := S1024x4096) S1024x512.size (cc0_transform_7 i) (hinb0_7 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x4096, .f32⟩
  | .hbm, ⟨16, _⟩ => ⟨S4096x4096, .f32⟩
  | .hbm, ⟨17, _⟩ => ⟨S4096, .f32⟩
  | .hbm, ⟨18, _⟩ => ⟨S4096, .f32⟩
  | .hbm, ⟨19, _⟩ => ⟨S1024x4096, .f32⟩
  | .hbm, ⟨20, _⟩ => ⟨S1x4096, .f32⟩
  | .hbm, ⟨21, _⟩ => ⟨S1024x4096, .f32⟩
  | .hbm, ⟨22, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.BodyCases.lean ====
import proofs.«160291_j33492154974381_2_alg».proof.Proof.Gen.KernelIdeal.Value
import Idealize.ShloMosaic.Lib.Pipeline.Value
import Idealize.ShloMosaic.Lib.Tactic

/-!
# What the body leaves, case by case

The grid is 8 output-feature tiles by 8 input-feature blocks, the block coordinate innermost. At every point the body
adds, into a [1024, 512] accumulator kept between points, the product of 512 columns of the resident batch with the
point's [512, 512] tile of sampled weights. At the first block of a tile it first stores zeros into the accumulator and
reads them back; at the last block it also stores the accumulator plus the tile's sampled bias row into the output
block. So, as pure functions of the blocks the point is handed (and of what the accumulator held):

* first block: the accumulator ends at `zeros + product`;
* a middle block: at `accumulator + product`;
* the last block: at `accumulator + product`, and the output block at that plus the bias row.

Here `product` and the bias row are the body's own arithmetic terms; reading them at an index is another module's work.
-/

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- The 512 columns of the resident batch block that the point's block coordinate selects. -/
abbrev xcols (i : grid0.Coords) (x0 : Vec F S1024x4096 .f32) : Vec F S1024x512 .f32 :=
  View.ld x0 (Rect.unit (s := S1024x4096) (k0_off1 i) S1024x512.size (k0_off1_inb i))

/-- First block of a tile: the accumulator is zeroed, read back, and ends at zeros plus the point's product. -/
theorem acc_first (c : Dev nD) (i : grid0.Coords) (a2 : Memref sig .tc .vmem S1024x4096 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (a9 : Memref sig .tc .vmem S1024x512 .f32) (h9 : a9.IsWhole) (a10 : Memref sig .tc .vmem S1024x512 .f32) (h10 : a10.IsWhole) (hc0 : cond0_0 i) (hc1 : ¬cond0_1 i)
    (x0 : Vec F S1024x4096 .f32) (x1 : Vec F S512x512 .f32) (x2 : Vec F S512x512 .f32) (x3 : Vec F S512x512 .f32) (x4 : Vec F S1x512 .f32) (x5 : Vec F S1x512 .f32) (x6 : Vec F S1x512 .f32) :
    sout0_A_0 c i a2 h2 a3 h3 a4 h4 a5 h5 a6 h6 a7 h7 a8 h8 a9 h9 a10 h10 hc0 hc1 x0 x1 x2 x3 x4 x5 x6 = k0_pay2 (xcols i x0) x2 x1 x3 k0_pay1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x512) hz, View.readCov_unit_zero (S := S1024x512) _ hz]
  simp only [View.readAt_eq_ld, h2.read_unread, h3.read_unread, h4.read_unread, h5.read_unread, h6.read_unread, h7.read_unread, h8.read_unread, h10.read_unread,
    View.ld_unit_zero (S := S512x512) hz, View.ld_unit_zero (S := S1024x512) hz, View.ld_unit_zero (S := S1x512) hz]
  rfl

/-- A middle block: the accumulator ends at what it held plus the point's product. -/
theorem acc_middle (c : Dev nD) (i : grid0.Coords) (a2 : Memref sig .tc .vmem S1024x4096 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (a9 : Memref sig .tc .vmem S1024x512 .f32) (h9 : a9.IsWhole) (a10 : Memref sig .tc .vmem S1024x512 .f32) (h10 : a10.IsWhole) (hc0 : ¬cond0_0 i) (hc1 : ¬cond0_1 i)
    (x0 : Vec F S1024x4096 .f32) (x1 : Vec F S512x512 .f32) (x2 : Vec F S512x512 .f32) (x3 : Vec F S512x512 .f32) (x4 : Vec F S1x512 .f32) (x5 : Vec F S1x512 .f32) (x6 : Vec F S1x512 .f32) (xs0 : Vec F S1024x512 .f32) :
    sout0_B_0 c i a2 h2 a3 h3 a4 h4 a5 h5 a6 h6 a7 h7 a8 h8 a9 h9 a10 h10 hc0 hc1 x0 x1 x2 x3 x4 x5 x6 xs0 = k0_pay2 (xcols i x0) x2 x1 x3 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs0)]
  unfold kernelRun0_B
  dsimp only
  rw [View.canon_unit_zero hz]
  simp only [View.readAt_eq_ld, h2.read_unread, h3.read_unread, h4.read_unread, h5.read_unread, h6.read_unread, h7.read_unread, h8.read_unread, h10.read_unread,
    View.ld_unit_zero (S := S512x512) hz, View.ld_unit_zero (S := S1024x512) hz, View.ld_unit_zero (S := S1x512) hz]

/-- The last block: the accumulator again ends at what it held plus the point's product, -/
theorem acc_last (c : Dev nD) (i : grid0.Coords) (a2 : Memref sig .tc .vmem S1024x4096 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (a9 : Memref sig .tc .vmem S1024x512 .f32) (h9 : a9.IsWhole) (a10 : Memref sig .tc .vmem S1024x512 .f32) (h10 : a10.IsWhole) (hc0 : ¬cond0_0 i) (hc1 : cond0_1 i)
    (x0 : Vec F S1024x4096 .f32) (x1 : Vec F S512x512 .f32) (x2 : Vec F S512x512 .f32) (x3 : Vec F S512x512 .f32) (x4 : Vec F S1x512 .f32) (x5 : Vec F S1x512 .f32) (x6 : Vec F S1x512 .f32) (xs0 : Vec F S1024x512 .f32) :
    sout0_C_0 c i a2 h2 a3 h3 a4 h4 a5 h5 a6 h6 a7 h7 a8 h8 a9 h9 a10 h10 hc0 hc1 x0 x1 x2 x3 x4 x5 x6 xs0 = k0_pay2 (xcols i x0) x2 x1 x3 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h10.read_unread,
    View.ld_unit_zero (S := S512x512) hz, View.ld_unit_zero (S := S1024x512) hz, View.ld_unit_zero (S := S1x512) hz]
  rfl

/-- and the output block at that, read back, plus the tile's bias row. -/
theorem out_last (c : Dev nD) (i : grid0.Coords) (a2 : Memref sig .tc .vmem S1024x4096 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (a9 : Memref sig .tc .vmem S1024x512 .f32) (h9 : a9.IsWhole) (a10 : Memref sig .tc .vmem S1024x512 .f32) (h10 : a10.IsWhole) (hc0 : ¬cond0_0 i) (hc1 : cond0_1 i)
    (x0 : Vec F S1024x4096 .f32) (x1 : Vec F S512x512 .f32) (x2 : Vec F S512x512 .f32) (x3 : Vec F S512x512 .f32) (x4 : Vec F S1x512 .f32) (x5 : Vec F S1x512 .f32) (x6 : Vec F S1x512 .f32) (xs0 : Vec F S1024x512 .f32) :
    out0_C_7 c i a2 h2 a3 h3 a4 h4 a5 h5 a6 h6 a7 h7 a8 h8 a9 h9 a10 h10 hc0 hc1 x0 x1 x2 x3 x4 x5 x6 xs0 = k0_pay3 x5 x4 x6 (k0_pay2 (xcols i x0) x2 x1 x3 xs0) := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz, View.readCov_unit_zero (S := S1024x512) _ hz]
  simp only [View.readAt_eq_ld, h2.read_unread, h3.read_unread, h4.read_unread, h5.read_unread, h6.read_unread, h7.read_unread, h8.read_unread, h10.read_unread,
    View.ld_unit_zero (S := S512x512) hz, View.ld_unit_zero (S := S1024x512) hz, View.ld_unit_zero (S := S1x512) hz]
  rfl

end Cert.KernelIdeal.Cases

end
-- ==== Proof.LibTransposedProduct.lean ====
import Idealize.ShloMosaic.PureOps.Ideal
import Idealize.ShloMosaic.PureOps.Ideal.Laws
import Idealize.ShloMosaic.Lib.ValueIdx

/-!
# A matrix product whose right factor is stored transposed

`matmul_rowsT_apply`: for an `[a, k]` matrix `L` and a `[b, k]` matrix `R` (the right factor stored row by row, as a
linear layer stores its weights), the product contracted over the LAST axis of both and accumulated into zero is, at
`(r, c)`, the sum over `u < k` of `L (r, u) · R (c, u)` on the extended reals — at any extents, for any
dimension-numbers record whose operand indices have those coordinates.
-/

noncomputable section

open scoped BigOperators

namespace Cert.TransposedProduct

open Idealize.ShloMosaic Idealize.ShloMosaic.ValueIdx

/-- L · Rᵀ accumulated into zero, at `(r, c)`: row `r` of `L` against row `c` of `R`. -/
theorem matmul_rowsT_apply {a k b : ℕ} {φ₁ φ₂ : FTy}
    (D : DotDims ⟨2, ![a, k]⟩ ⟨2, ![b, k]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (L : FVec Ideal ⟨2, ![a, k]⟩ φ₁) (R : FVec Ideal ⟨2, ![b, k]⟩ φ₂) (r : Fin a) (c : Fin b) :
    FloatOps.matmul D prec L R (constant ⟨2, ![a, b]⟩ .f32 0x00000000#32) (ix2 r c)
      = ∑ u : Fin k, L (ix2 r u) * R (ix2 c u) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 c u := by
    funext ax
    match ax with
    | ⟨0, _⟩ => exact Fin.ext (hr0 _ _)
    | ⟨1, _⟩ => exact Fin.ext ((hr1 _ _).trans (contrEquiv1_symm_val D k hr hs u))
  rw [hL, hR]

end Cert.TransposedProduct

end
-- ==== Proof.LibBlockedSum.lean ====
/-
  A sum over an axis of length nb · bs may be taken block by block: for each of the nb blocks in order, the sum over the
  bs entries of the block. Stated for any commutative additive monoid (the extended reals among them: re-grouping a sum
  needs no finiteness), with the entry of block k at offset d addressed as (bs · k + d) mod (nb · bs) so that the
  statement needs no bound proofs; within range the remainder is the number itself.
-/
import Mathlib.Algebra.BigOperators.Fin
import Mathlib.Algebra.BigOperators.Field
import Mathlib.Logic.Equiv.Fin.Basic
import Mathlib.Tactic.Ring

namespace Cert.Lib

open Finset

/-- The sum over the blocks, in order, of the sums over each block is the sum over the whole axis. -/
theorem sum_range_blocks {M : Type*} [AddCommMonoid M] (nb bs : ℕ) (hpos : 0 < nb * bs) (f : Fin (nb * bs) → M) :
    ∑ k ∈ Finset.range nb, ∑ d : Fin bs, f ⟨(bs * k + d.val) % (nb * bs), Nat.mod_lt _ hpos⟩ = ∑ j, f j := by
  rw [← Fin.sum_univ_eq_sum_range (fun k => ∑ d : Fin bs, f ⟨(bs * k + d.val) % (nb * bs), Nat.mod_lt _ hpos⟩) nb]
  rw [← Fintype.sum_prod_type']
  refine Fintype.sum_equiv finProdFinEquiv _ _ (fun ⟨k, d⟩ => ?_)
  congr 1
  apply Fin.ext
  show (bs * k.val + d.val) % (nb * bs) = d.val + bs * k.val
  have hlt : bs * k.val + d.val < nb * bs := by
    have h1 : bs * k.val + d.val < bs * k.val + bs := Nat.add_lt_add_left d.isLt _
    have h2 : bs * k.val + bs = bs * (k.val + 1) := by ring
    have h3 : bs * (k.val + 1) ≤ bs * nb := Nat.mul_le_mul_left bs k.isLt
    calc bs * k.val + d.val < bs * (k.val + 1) := h2 ▸ h1
      _ ≤ bs * nb := h3
      _ = nb * bs := Nat.mul_comm _ _
  rw [Nat.mod_eq_of_lt hlt, Nat.add_comm]

/-- The partial sums over the first blocks grow by one block at a time. -/
theorem sum_range_blocks_succ {M : Type*} [AddCommMonoid M] (g : ℕ → M) (k : ℕ) :
    ∑ j ∈ Finset.range (k + 1), g j = (∑ j ∈ Finset.range k, g j) + g k := Finset.sum_range_succ g k

end Cert.Lib
-- ==== Proof.SampledLinear.lean ====
import Idealize.ShloMosaic.PureOps.Ideal
import Idealize.ShloMosaic.Lib.ValueIdx
import proofs.«160291_j33492154974381_2_alg».proof.Proof.LibBlockedSum

/-!
# A linear layer whose weights and bias are sampled: the function both programs compute

For a batch `x` of 1024 rows of 4096 features, weight means, log-deviations and noise of shape `[4096, 4096]` (one row
per output feature) and bias means, log-deviations and noise of length 4096, the sampled weight is
`W o i = mean o i + noise o i · max (exp (logstd o i)) ε`, the sampled bias `β o = mean o + noise o · max (exp (logstd o)) ε`
with the same floor `ε`, and the layer's output at `(b, o)` is `∑ i, x b i · W o i + β o` on the extended reals.

The contraction over the 4096 features may be taken in 8 consecutive blocks of 512: re-grouping a sum needs only that
addition is commutative and associative, which it is on the extended reals, so no entry has to be finite.
-/

noncomputable section

open scoped BigOperators

namespace Cert.SampledLinear

open Idealize.ShloMosaic Idealize.ShloMosaic.ValueIdx

/-- The floor under a sampled deviation, as the extended real its f32 word denotes. -/
abbrev floor : EReal := Ideal.ofBits .f32 0x3727C5AC#32

/-- The sampled weight of output feature `o` on input feature `i`. -/
def weight (wm ws nw : (⟨2, ![4096, 4096]⟩ : Shape).Idx → EReal) (o i : Fin 4096) : EReal :=
  wm (ix2 o i) + nw (ix2 o i) * max (Ideal.exp (ws (ix2 o i))) floor

/-- The sampled bias of output feature `o`. -/
def bias (bm bs nb : (⟨1, ![4096]⟩ : Shape).Idx → EReal) (o : Fin 4096) : EReal :=
  bm (ix1 o) + nb (ix1 o) * max (Ideal.exp (bs (ix1 o))) floor

/-- Row `b` of the batch against the sampled weights of output feature `o`. -/
def contraction (x : (⟨2, ![1024, 4096]⟩ : Shape).Idx → EReal) (wm ws nw : (⟨2, ![4096, 4096]⟩ : Shape).Idx → EReal)
    (b : Fin 1024) (o : Fin 4096) : EReal :=
  ∑ i : Fin 4096, x (ix2 b i) * weight wm ws nw o i

/-- The layer's output at row `b`, output feature `o`. -/
def outputAt (x : (⟨2, ![1024, 4096]⟩ : Shape).Idx → EReal) (wm ws nw : (⟨2, ![4096, 4096]⟩ : Shape).Idx → EReal)
    (bm bs nb : (⟨1, ![4096]⟩ : Shape).Idx → EReal) (b : Fin 1024) (o : Fin 4096) : EReal :=
  contraction x wm ws nw b o + bias bm bs nb o

/-- The layer's output array. -/
def output (x : (⟨2, ![1024, 4096]⟩ : Shape).Idx → EReal) (wm ws nw : (⟨2, ![4096, 4096]⟩ : Shape).Idx → EReal)
    (bm bs nb : (⟨1, ![4096]⟩ : Shape).Idx → EReal) : (⟨2, ![1024, 4096]⟩ : Shape).Idx → EReal :=
  fun j => outputAt x wm ws nw bm bs nb (j 0) (j 1)

/-- Feature `512 · s + u`, as an index below 4096 whatever `s` is (the remainder is the number itself for `s < 8`). -/
abbrev feat (s : ℕ) (u : Fin 512) : Fin 4096 := ⟨(512 * s + u.val) % 4096, Nat.mod_lt _ (by norm_num)⟩

/-- The part of the contraction that block `s` of 512 consecutive features contributes. -/
def blockPart (x : (⟨2, ![1024, 4096]⟩ : Shape).Idx → EReal) (wm ws nw : (⟨2, ![4096, 4096]⟩ : Shape).Idx → EReal)
    (b : Fin 1024) (o : Fin 4096) (s : ℕ) : EReal :=
  ∑ u : Fin 512, x (ix2 b (feat s u)) * weight wm ws nw o (feat s u)

/-- The eight blocks' parts add up to the whole contraction. -/
theorem sum_blockPart (x : (⟨2, ![1024, 4096]⟩ : Shape).Idx → EReal) (wm ws nw : (⟨2, ![4096, 4096]⟩ : Shape).Idx → EReal)
    (b : Fin 1024) (o : Fin 4096) :
    ∑ s ∈ Finset.range 8, blockPart x wm ws nw b o s = contraction x wm ws nw b o :=
  Cert.Lib.sum_range_blocks 8 512 (by norm_num) (fun i : Fin 4096 => x (ix2 b i) * weight wm ws nw o i)

end Cert.SampledLinear

end
-- ==== Proof.PayloadReads.lean ====
import proofs.«160291_j33492154974381_2_alg».proof.Proof.Gen.KernelIdeal.Skeleton
import proofs.«160291_j33492154974381_2_alg».proof.Proof.LibTransposedProduct
import proofs.«160291_j33492154974381_2_alg».proof.Proof.SampledLinear
import Idealize.ShloMosaic.Lib.Pipeline.Value
import Idealize.ShloMosaic.Lib.ValueLayout
import Idealize.ShloMosaic.Lib.ValueIdx
import Idealize.ShloMosaic.PureOps.Ideal.Laws

/-!
# The body's arithmetic, read at an index on the extended reals

Three terms: the zero block the accumulator is reset to; the accumulator plus the product of a [1024, 512] block of the
batch with a [512, 512] tile of sampled weights (both contracted over their last axis, the tile stored one row per
output feature); and the accumulator plus one sampled bias row repeated over the 1024 batch rows. A change of float
format is the identity on the extended reals, so the narrowing of the product's operands does not appear.
-/

noncomputable section

open scoped BigOperators

namespace Cert.KernelIdeal.Payloads

open Cert.KernelIdeal Cert.KernelIdeal.Gen Idealize.ShloMosaic Idealize.ShloMosaic.ValueIdx
open Cert.SampledLinear (floor)

local notation "D" => dot_S1024x512_S512x512_S1024x512_1_1_0_0_n_n

theorem lhs0 (j : S1024x512.Idx) (q : (D).contr.Idx) : ((D).lhsIdx j q 0).val = (j 0).val := by
  unfold DotDims.lhsIdx
  rw [dif_neg (show ¬(0 : Fin S1024x512.rank) ∈ (D).lhsBatch by decide), dif_pos (show (0 : Fin S1024x512.rank) ∈ (D).lhsNonContracting by decide)]
  rfl

theorem lhs1 (j : S1024x512.Idx) (q : (D).contr.Idx) : ((D).lhsIdx j q 1).val = (q ⟨0, by decide⟩).val :=
  (D).lhsIdx_val_of_single rfl j q

theorem rhs0 (j : S1024x512.Idx) (q : (D).contr.Idx) : ((D).rhsIdx j q 0).val = (j 1).val := by
  unfold DotDims.rhsIdx
  rw [dif_neg (show ¬(0 : Fin S512x512.rank) ∈ (D).rhsBatch by decide), dif_pos (show (0 : Fin S512x512.rank) ∈ (D).rhsNonContracting by decide)]
  rfl

theorem rhs1 (j : S1024x512.Idx) (q : (D).contr.Idx) : ((D).rhsIdx j q 1).val = (q ⟨0, by decide⟩).val :=
  (D).rhsIdx_val_of_single rfl j q

/-- The reset block is zero everywhere. -/
theorem zeros_apply (j : S1024x512.Idx) : k0_pay1 (F := Ideal) j = 0 := by
  unfold k0_pay1
  refine (congrFun (shapeCast_self _ _) j).trans ?_
  exact Ideal.ofBits_zero_f32

/-- The accumulator plus the product, at row `r`, output column `c` of the tile: what the accumulator held there plus
    the sum over the 512 features `u` of the block of `x r u` times the sampled weight `mean c u + noise c u · max (exp (logstd c u)) ε`. -/
theorem accumulate_apply (xb : Vec Ideal S1024x512 .f32) (ws wm nw : Vec Ideal S512x512 .f32) (acc : Vec Ideal S1024x512 .f32)
    (r : Fin 1024) (c : Fin 512) :
    k0_pay2 xb ws wm nw acc (ix2 r c)
      = acc (ix2 r c) + ∑ u : Fin 512, xb (ix2 r u) * (wm (ix2 c u) + nw (ix2 c u) * max (Ideal.exp (ws (ix2 c u))) floor) := by
  unfold k0_pay2
  refine (congrFun (shapeCast_self _ _) (ix2 r c)).trans ?_
  refine (congrArg (acc (ix2 r c) + ·) (Cert.TransposedProduct.matmul_rowsT_apply D rfl rfl lhs0 lhs1 rhs0 rhs1 none _ _ r c)).trans ?_
  rfl

/-- The accumulator plus the bias row, at row `r`, column `c`: the accumulator there plus the sampled bias of column `c`. -/
theorem add_bias_apply (bs bm nb : Vec Ideal S1x512 .f32) (acc : Vec Ideal S1024x512 .f32) (r : Fin 1024) (c : Fin 512) :
    k0_pay3 bs bm nb acc (ix2 r c)
      = acc (ix2 r c) + (bm (ix2 (0 : Fin 1) c) + nb (ix2 (0 : Fin 1) c) * max (Ideal.exp (bs (ix2 (0 : Fin 1) c))) floor) := by
  unfold k0_pay3
  refine (congrArg (acc (ix2 r c) + ·) (broadcastTo_1b_ab_apply _ broadcasts_S1x512_S1024x512 r c)).trans ?_
  rw [shapeCast_self, shapeCast_self, shapeCast_self]
  rfl

end Cert.KernelIdeal.Payloads

end
-- ==== Proof.BlockReads.lean ====
import proofs.«160291_j33492154974381_2_alg».proof.Proof.BodyCases
import proofs.«160291_j33492154974381_2_alg».proof.Proof.SampledLinear
import Idealize.ShloMosaic.Lib.Pipeline.Value
import Idealize.ShloMosaic.Lib.ValueLayout
import Idealize.ShloMosaic.Lib.ValueIdx
import Idealize.ShloMosaic.Lib.StableHlo.Run

/-!
# The blocks a grid point is handed, read off the argument arrays

Point `t` of the 8 × 8 grid works on output-feature tile `t / 8` and input-feature block `t % 8`. The batch is handed
whole at every point, and the body takes its columns `512 · (t % 8) …`; the three weight components are handed their
`[512, 512]` tile at block index `(t / 8, t % 8)`; the three bias components, reshaped from length 4096 to one row
`[1, 4096]` before the call, are handed the `[1, 512]` piece at block index `(0, t / 8)`; the output block is the
`[1024, 512]` block at `(0, t / 8)`. A block's coordinate in its array is always block index × block size + the
coordinate inside the block.
-/

noncomputable section

open Idealize.ShloMosaic Idealize.ShloMosaic.TcCoe Idealize.SL.Sem

namespace Cert.KernelIdeal.Blocks

open Cert.KernelIdeal Cert.KernelIdeal.Gen Idealize.ShloMosaic.ValueIdx
open Cert.SampledLinear (feat)

variable {F : FTy → Type} [FloatOps F]
variable (m : (ℓ : Loc nD τ sig) → Buf (Elt F) ℓ)

/-- The printed index maps and the body's column offset, decided once over the 64 points. -/
theorem grid_facts : ∀ t : Fin cfg0.N,
    (win0_0.index t (0 : Fin 2) = 0 ∧ win0_0.index t (1 : Fin 2) = 0)
    ∧ (win0_1.index t (0 : Fin 2) = t.val / 8 ∧ win0_1.index t (1 : Fin 2) = t.val % 8)
    ∧ (win0_2.index t (0 : Fin 2) = t.val / 8 ∧ win0_2.index t (1 : Fin 2) = t.val % 8)
    ∧ (win0_3.index t (0 : Fin 2) = t.val / 8 ∧ win0_3.index t (1 : Fin 2) = t.val % 8)
    ∧ (win0_4.index t (0 : Fin 2) = 0 ∧ win0_4.index t (1 : Fin 2) = t.val / 8)
    ∧ (win0_5.index t (0 : Fin 2) = 0 ∧ win0_5.index t (1 : Fin 2) = t.val / 8)
    ∧ (win0_6.index t (0 : Fin 2) = 0 ∧ win0_6.index t (1 : Fin 2) = t.val / 8)
    ∧ (win0_7.index t (0 : Fin 2) = 0 ∧ win0_7.index t (1 : Fin 2) = t.val / 8)
    ∧ (k0_off1 (grid0.coords t) (0 : Fin 2) = 0 ∧ k0_off1 (grid0.coords t) (1 : Fin 2) = 512 * (t.val % 8)) :=
  (by decide +kernel : ∀ t : Fin grid0.N, _)

/-- Output-feature `512 · q + o`, as an index below 4096 whatever `q` is (the number itself for `q < 8`). -/
abbrev ofeat (q : ℕ) (o : Fin 512) : Fin 4096 := ⟨(512 * q + o.val) % 4096, Nat.mod_lt _ (by norm_num)⟩

/-- The batch columns the body takes at point `t`: row `r`, column `u` of them is `x r (512 · (t % 8) + u)`. -/
theorem batch_cols_apply (c : Dev nD) (t : Fin cfg0.N) (r : Fin 1024) (u : Fin 512) :
    Cases.xcols (grid0.coords t) (iblk m c 0 t) (ix2 r u)
      = m ((c : Thread nD τ).loc main_arg0) (ix2 r (feat (t.val % 8) u)) := by
  obtain ⟨⟨e0, e1⟩, -, -, -, -, -, -, -, ⟨k0, k1⟩⟩ := grid_facts t
  have ht : t.val < 64 := lt_of_lt_of_eq t.isLt (show cfg0.N = 64 from N_0)
  show iblk m c 0 t ((Rect.unit (s := S1024x4096) (k0_off1 (grid0.coords t)) S1024x512.size (k0_off1_inb (grid0.coords t))).idx (ix2 r u)) = _
  unfold iblk
  rw [View.read_apply, ← V_main_arg0 m c]
  show V m c main_arg0 _ = V m c main_arg0 _
  congr 1
  funext a
  apply Fin.ext
  match a with
  | ⟨0, _⟩ =>
    show win0_0.index t (0 : Fin 2) * 1024 + 1 * (k0_off1 (grid0.coords t) (0 : Fin 2) + 1 * r.val) = r.val
    omega
  | ⟨1, _⟩ =>
    show win0_0.index t (1 : Fin 2) * 4096 + 1 * (k0_off1 (grid0.coords t) (1 : Fin 2) + 1 * u.val) = (512 * (t.val % 8) + u.val) % 4096
    have hu : u.val < 512 := u.isLt
    omega

/-- The weight-mean tile handed at point `t`: row `o`, column `u` of it is entry `(512 · (t / 8) + o, 512 · (t % 8) + u)` of the matrix. -/
theorem wmean_tile_apply (c : Dev nD) (t : Fin cfg0.N) (o u : Fin 512) :
    iblk m c 1 t (ix2 o u)
      = m ((c : Thread nD τ).loc main_arg1) (ix2 (ofeat (t.val / 8) o) (feat (t.val % 8) u)) := by
  have e := (grid_facts t)
  have e0 : win0_1.index t (0 : Fin 2) = t.val / 8 := by tauto
  have e1 : win0_1.index t (1 : Fin 2) = t.val % 8 := by tauto
  have ht : t.val < 64 := lt_of_lt_of_eq t.isLt (show cfg0.N = 64 from N_0)
  unfold iblk
  rw [View.read_apply, ← V_main_arg1 m c]
  show V m c main_arg1 _ = V m c main_arg1 _
  congr 1
  funext a
  apply Fin.ext
  have ho : o.val < 512 := o.isLt
  have hu : u.val < 512 := u.isLt
  match a with
  | ⟨0, _⟩ =>
    show win0_1.index t (0 : Fin 2) * 512 + 1 * o.val = (512 * (t.val / 8) + o.val) % 4096
    omega
  | ⟨1, _⟩ =>
    show win0_1.index t (1 : Fin 2) * 512 + 1 * u.val = (512 * (t.val % 8) + u.val) % 4096
    omega

/-- The same for the weight log-deviations, -/
theorem wlogstd_tile_apply (c : Dev nD) (t : Fin cfg0.N) (o u : Fin 512) :
    iblk m c 2 t (ix2 o u)
      = m ((c : Thread nD τ).loc main_arg2) (ix2 (ofeat (t.val / 8) o) (feat (t.val % 8) u)) := by
  have e := (grid_facts t)
  have e0 : win0_2.index t (0 : Fin 2) = t.val / 8 := by tauto
  have e1 : win0_2.index t (1 : Fin 2) = t.val % 8 := by tauto
  have ht : t.val < 64 := lt_of_lt_of_eq t.isLt (show cfg0.N = 64 from N_0)
  unfold iblk
  rw [View.read_apply, ← V_main_arg2 m c]
  show V m c main_arg2 _ = V m c main_arg2 _
  congr 1
  funext a
  apply Fin.ext
  have ho : o.val < 512 := o.isLt
  have hu : u.val < 512 := u.isLt
  match a with
  | ⟨0, _⟩ =>
    show win0_2.index t (0 : Fin 2) * 512 + 1 * o.val = (512 * (t.val / 8) + o.val) % 4096
    omega
  | ⟨1, _⟩ =>
    show win0_2.index t (1 : Fin 2) * 512 + 1 * u.val = (512 * (t.val % 8) + u.val) % 4096
    omega

/-- and for the weight noise. -/
theorem wnoise_tile_apply (c : Dev nD) (t : Fin cfg0.N) (o u : Fin 512) :
    iblk m c 3 t (ix2 o u)
      = m ((c : Thread nD τ).loc main_arg5) (ix2 (ofeat (t.val / 8) o) (feat (t.val % 8) u)) := by
  have e := (grid_facts t)
  have e0 : win0_3.index t (0 : Fin 2) = t.val / 8 := by tauto
  have e1 : win0_3.index t (1 : Fin 2) = t.val % 8 := by tauto
  have ht : t.val < 64 := lt_of_lt_of_eq t.isLt (show cfg0.N = 64 from N_0)
  unfold iblk
  rw [View.read_apply, ← V_main_arg5 m c]
  show V m c main_arg5 _ = V m c main_arg5 _
  congr 1
  funext a
  apply Fin.ext
  have ho : o.val < 512 := o.isLt
  have hu : u.val < 512 := u.isLt
  match a with
  | ⟨0, _⟩ =>
    show win0_3.index t (0 : Fin 2) * 512 + 1 * o.val = (512 * (t.val / 8) + o.val) % 4096
    omega
  | ⟨1, _⟩ =>
    show win0_3.index t (1 : Fin 2) * 512 + 1 * u.val = (512 * (t.val % 8) + u.val) % 4096
    omega

/-- Before the call the bias-mean vector is reshaped to one row. -/
theorem V_bias_mean (c : Dev nD) :
    (V m c main_v0 : S1x4096.Idx → Elt F .f32) = shapeCast S1x4096 (m ((c : Thread nD τ).loc main_arg3)) shapeCasts_S4096_S1x4096 := by
  dsimp only [Gen.V, Gen.hostOps0]
  after_results
  rfl

/-- The piece of the bias-mean row handed at point `t`: its column `o` is entry `512 · (t / 8) + o` of the vector. -/
theorem bmean_piece_apply (c : Dev nD) (t : Fin cfg0.N) (o : Fin 512) :
    iblk m c 4 t (ix2 (0 : Fin 1) o)
      = m ((c : Thread nD τ).loc main_arg3) (ix1 (ofeat (t.val / 8) o)) := by
  have e := (grid_facts t)
  have e0 : win0_4.index t (0 : Fin 2) = 0 := by tauto
  have e1 : win0_4.index t (1 : Fin 2) = t.val / 8 := by tauto
  have ht : t.val < 64 := lt_of_lt_of_eq t.isLt (show cfg0.N = 64 from N_0)
  unfold iblk
  rw [View.read_apply]
  show (V m c main_v0 : S1x4096.Idx → Elt F .f32) _ = _
  rw [V_bias_mean m c]
  refine (congrArg _ ?_).trans (shapeCast_a_1a_apply (m ((c : Thread nD τ).loc main_arg3)) shapeCasts_S4096_S1x4096 (0 : Fin 1) (ofeat (t.val / 8) o))
  funext a
  apply Fin.ext
  have ho : o.val < 512 := o.isLt
  match a with
  | ⟨0, _⟩ =>
    show win0_4.index t (0 : Fin 2) * 1 + 1 * 0 = 0
    omega
  | ⟨1, _⟩ =>
    show win0_4.index t (1 : Fin 2) * 512 + 1 * o.val = (512 * (t.val / 8) + o.val) % 4096
    omega

/-- Before the call the bias log-deviation vector is reshaped to one row. -/
theorem V_bias_logstd (c : Dev nD) :
    (V m c main_v1 : S1x4096.Idx → Elt F .f32) = shapeCast S1x4096 (m ((c : Thread nD τ).loc main_arg4)) shapeCasts_S4096_S1x4096 := by
  dsimp only [Gen.V, Gen.hostOps0]
  after_results
  rfl

/-- The piece of the bias log-deviation row handed at point `t`: its column `o` is entry `512 · (t / 8) + o` of the vector. -/
theorem blogstd_piece_apply (c : Dev nD) (t : Fin cfg0.N) (o : Fin 512) :
    iblk m c 5 t (ix2 (0 : Fin 1) o)
      = m ((c : Thread nD τ).loc main_arg4) (ix1 (ofeat (t.val / 8) o)) := by
  have e := (grid_facts t)
  have e0 : win0_5.index t (0 : Fin 2) = 0 := by tauto
  have e1 : win0_5.index t (1 : Fin 2) = t.val / 8 := by tauto
  have ht : t.val < 64 := lt_of_lt_of_eq t.isLt (show cfg0.N = 64 from N_0)
  unfold iblk
  rw [View.read_apply]
  show (V m c main_v1 : S1x4096.Idx → Elt F .f32) _ = _
  rw [V_bias_logstd m c]
  refine (congrArg _ ?_).trans (shapeCast_a_1a_apply (m ((c : Thread nD τ).loc main_arg4)) shapeCasts_S4096_S1x4096 (0 : Fin 1) (ofeat (t.val / 8) o))
  funext a
  apply Fin.ext
  have ho : o.val < 512 := o.isLt
  match a with
  | ⟨0, _⟩ =>
    show win0_5.index t (0 : Fin 2) * 1 + 1 * 0 = 0
    omega
  | ⟨1, _⟩ =>
    show win0_5.index t (1 : Fin 2) * 512 + 1 * o.val = (512 * (t.val / 8) + o.val) % 4096
    omega

/-- Before the call the bias-noise vector is reshaped to one row. -/
theorem V_bias_noise (c : Dev nD) :
    (V m c main_v2 : S1x4096.Idx → Elt F .f32) = shapeCast S1x4096 (m ((c : Thread nD τ).loc main_arg6)) shapeCasts_S4096_S1x4096 := by
  dsimp only [Gen.V, Gen.hostOps0]
  after_results
  rfl

/-- The piece of the bias-noise row handed at point `t`: its column `o` is entry `512 · (t / 8) + o` of the vector. -/
theorem bnoise_piece_apply (c : Dev nD) (t : Fin cfg0.N) (o : Fin 512) :
    iblk m c 6 t (ix2 (0 : Fin 1) o)
      = m ((c : Thread nD τ).loc main_arg6) (ix1 (ofeat (t.val / 8) o)) := by
  have e := (grid_facts t)
  have e0 : win0_6.index t (0 : Fin 2) = 0 := by tauto
  have e1 : win0_6.index t (1 : Fin 2) = t.val / 8 := by tauto
  have ht : t.val < 64 := lt_of_lt_of_eq t.isLt (show cfg0.N = 64 from N_0)
  unfold iblk
  rw [View.read_apply]
  show (V m c main_v2 : S1x4096.Idx → Elt F .f32) _ = _
  rw [V_bias_noise m c]
  refine (congrArg _ ?_).trans (shapeCast_a_1a_apply (m ((c : Thread nD τ).loc main_arg6)) shapeCasts_S4096_S1x4096 (0 : Fin 1) (ofeat (t.val / 8) o))
  funext a
  apply Fin.ext
  have ho : o.val < 512 := o.isLt
  match a with
  | ⟨0, _⟩ =>
    show win0_6.index t (0 : Fin 2) * 1 + 1 * 0 = 0
    omega
  | ⟨1, _⟩ =>
    show win0_6.index t (1 : Fin 2) * 512 + 1 * o.val = (512 * (t.val / 8) + o.val) % 4096
    omega

/-- Where element `(r, o)` of the output block written back at point `t` sits in the output array. -/
theorem out_block_emb (t : Fin cfg0.N) (r : Fin 1024) (o : Fin 512) :
    ((cfg0.win 7).blk t).view.emb (ix2 r o) = ix2 r (ofeat (t.val / 8) o) := by
  have e := (grid_facts t)
  have e0 : win0_7.index t (0 : Fin 2) = 0 := by tauto
  have e1 : win0_7.index t (1 : Fin 2) = t.val / 8 := by tauto
  have ht : t.val < 64 := lt_of_lt_of_eq t.isLt (show cfg0.N = 64 from N_0)
  funext a
  apply Fin.ext
  have ho : o.val < 512 := o.isLt
  match a with
  | ⟨0, _⟩ =>
    show win0_7.index t (0 : Fin 2) * 1024 + 1 * r.val = r.val
    omega
  | ⟨1, _⟩ =>
    show win0_7.index t (1 : Fin 2) * 512 + 1 * o.val = (512 * (t.val / 8) + o.val) % 4096
    omega

end Cert.KernelIdeal.Blocks

end
-- ==== Proof.Accumulated.lean ====
import proofs.«160291_j33492154974381_2_alg».proof.Proof.Gen.KernelIdeal.Value
import proofs.«160291_j33492154974381_2_alg».proof.Proof.BodyCases
import proofs.«160291_j33492154974381_2_alg».proof.Proof.PayloadReads
import proofs.«160291_j33492154974381_2_alg».proof.Proof.BlockReads
import proofs.«160291_j33492154974381_2_alg».proof.Proof.SampledLinear
import Idealize.ShloMosaic.Lib.Pipeline.Value

/-!
# The accumulator across a tile's eight points, and the block written at the last one

On the extended reals. Point `n` adds to the accumulator, at row `r` and column `o` of the tile, the part of the
contraction `∑ i, x r i · W (512 · (n / 8) + o) i` that input-feature block `n % 8` contributes. The first point of a
tile starts from zeros, so after the point at block `k` the accumulator holds `0 +` the parts of blocks `0 … k`; after
the last block that is the whole contraction, and the block written back there is the contraction plus the sampled
bias: the sampled linear layer's output at `(r, 512 · (n / 8) + o)`.
-/

noncomputable section

open scoped BigOperators
open Idealize.ShloMosaic Idealize.ShloMosaic.TcCoe Idealize.SL.Sem

namespace Cert.KernelIdeal.Accum

open Cert.KernelIdeal Cert.KernelIdeal.Gen Cert.KernelIdeal.Value Idealize.ShloMosaic.ValueIdx
open Cert.SampledLinear Cert.KernelIdeal.Blocks Cert.KernelIdeal.Cases Cert.KernelIdeal.Payloads

variable (m : (ℓ : Loc nD τ sig) → Buf (Elt Ideal) ℓ)

/-- What point `n` adds at element `j` of the accumulator: block `n % 8`'s part of the contraction of batch row `j 0`
    with the sampled weights of output feature `512 · (n / 8) + j 1`. -/
def part (c : Dev nD) (n : ℕ) (j : S1024x512.Idx) : EReal :=
  blockPart (m ((c : Thread nD τ).loc main_arg0)) (m ((c : Thread nD τ).loc main_arg1)) (m ((c : Thread nD τ).loc main_arg2))
    (m ((c : Thread nD τ).loc main_arg5)) (j 0) (ofeat (n / 8) (j 1)) (n % 8)

/-- One accumulation step at point `t`, on the blocks the point is handed: what the accumulator held plus the point's part. -/
theorem step (c : Dev nD) (t : Fin cfg0.N) (acc : Vec Ideal S1024x512 .f32) (j : S1024x512.Idx) :
    k0_pay2 (xcols (grid0.coords t) (iblk m c 0 t)) (iblk m c 2 t) (iblk m c 1 t) (iblk m c 3 t) acc j
      = acc j + part m c t.val j := by
  obtain ⟨r, o, rfl⟩ : ∃ (r : Fin 1024) (o : Fin 512), j = ix2 r o := ⟨j 0, j 1, eq_ix2 j⟩
  refine (accumulate_apply (xcols (grid0.coords t) (iblk m c 0 t)) (iblk m c 2 t) (iblk m c 1 t) (iblk m c 3 t) acc r o).trans ?_
  unfold part blockPart
  refine congrArg (acc (ix2 r o) + ·) (Finset.sum_congr rfl fun u _ => ?_)
  rw [batch_cols_apply m c t r u, wmean_tile_apply m c t o u, wlogstd_tile_apply m c t o u, wnoise_tile_apply m c t o u]
  rfl

/-- The accumulator after point `t`: zero plus the parts of the tile's points up to `t`. -/
theorem acc_after (c : Dev nD) (t : Fin cfg0.N) (j : S1024x512.Idx) :
    (outsAt0 m c t.val t.isLt).2 j = 0 + ∑ s ∈ Finset.range (t.val % 8 + 1), part m c (8 * (t.val / 8) + s) j := by
  have hN : cfg0.N = 64 := N_0
  rw [soutsAt0_0_eq m c t]
  refine Pipeline.accAt_add_apply (fun n h => scAt0_0 m c n h (VS0_0.read (Elt Ideal) VS0_0.junk)) (scAt0_0 m c)
    (fun _ => (0 : EReal)) (part m c) (8 * (t.val / 8)) 7 ?_ ?_ (t.val % 8) (by omega) _ j
  · intro h i
    have h0 : (8 * (t.val / 8)) % 8 = 0 := by omega
    have h1 : ¬(8 * (t.val / 8)) % 8 = 7 := by omega
    show scAt0_0 m c (8 * (t.val / 8)) h _ i = _
    unfold scAt0_0
    rw [dif_pos h0, dif_neg h1, acc_first]
    refine (step m c ⟨8 * (t.val / 8), h⟩ (k0_pay1 (F := Ideal)) i).trans ?_
    rw [zeros_apply]
  · intro n h acc i hb he
    have h0 : ¬n % 8 = 0 := by omega
    show scAt0_0 m c n h acc i = _
    unfold scAt0_0
    by_cases h1 : n % 8 = 7
    · rw [dif_neg h0, dif_pos h1, acc_last]
      exact step m c ⟨n, h⟩ acc i
    · rw [dif_neg h0, dif_neg h1, acc_middle]
      exact step m c ⟨n, h⟩ acc i

/-- The sampled linear layer's output array, of the seven arguments as launched. -/
abbrev result (c : Dev nD) : Buf (Elt Ideal) ((c : Thread nD τ).loc main_v3) :=
  output (m ((c : Thread nD τ).loc main_arg0)) (m ((c : Thread nD τ).loc main_arg1)) (m ((c : Thread nD τ).loc main_arg2))
    (m ((c : Thread nD τ).loc main_arg5)) (m ((c : Thread nD τ).loc main_arg3)) (m ((c : Thread nD τ).loc main_arg4))
    (m ((c : Thread nD τ).loc main_arg6))

/-- At a tile's last point the output block holds, at `(r, o)`, the layer's output at `(r, 512 · (t / 8) + o)`. -/
theorem out_at_last (c : Dev nD) (t : Fin cfg0.N) (h7 : t.val % 8 = 7) (r : Fin 1024) (o : Fin 512) :
    (outsAt0 m c t.val t.isLt).1 (ix2 r o) = result m c (ix2 r (ofeat (t.val / 8) o)) := by
  have hN : cfg0.N = 64 := N_0
  have h0 : ¬t.val % 8 = 0 := by omega
  have e1 : (outsAt0 m c t.val t.isLt).1
      = k0_pay3 (iblk m c 5 t) (iblk m c 4 t) (iblk m c 6 t) ((outsAt0 m c t.val t.isLt).2) := by
    rw [outsAt0_C m c t h0 h7]
    dsimp only
    rw [out_last, acc_last]
  rw [e1]
  refine (add_bias_apply (iblk m c 5 t) (iblk m c 4 t) (iblk m c 6 t) ((outsAt0 m c t.val t.isLt).2) r o).trans ?_
  rw [acc_after m c t (ix2 r o), bmean_piece_apply m c t o, blogstd_piece_apply m c t o, bnoise_piece_apply m c t o, zero_add, h7]
  have hparts : ∑ s ∈ Finset.range (7 + 1), part m c (8 * (t.val / 8) + s) (ix2 r o)
      = ∑ s ∈ Finset.range 8, blockPart (m ((c : Thread nD τ).loc main_arg0)) (m ((c : Thread nD τ).loc main_arg1))
          (m ((c : Thread nD τ).loc main_arg2)) (m ((c : Thread nD τ).loc main_arg5)) r (ofeat (t.val / 8) o) s :=
    Finset.sum_congr rfl fun s hs => by
      have hs8 : s < 8 := Finset.mem_range.mp hs
      unfold part
      rw [show (8 * (t.val / 8) + s) / 8 = t.val / 8 by omega, show (8 * (t.val / 8) + s) % 8 = s by omega]
  rw [hparts, sum_blockPart]
  rfl

end Cert.KernelIdeal.Accum

end
-- ==== Proof.KernelLinear.lean ====
import proofs.«160291_j33492154974381_2_alg».proof.Proof.Accumulated
import Idealize.ShloMosaic.Lib.Pipeline.Value

/-!
# The kernel's result array is the sampled linear layer's output

On the extended reals. The output array is written back once per output-feature tile, after the tile's last
input-feature block, and what is written there is the tile's block of the layer's output; the eight tiles' blocks,
each all 1024 rows by 512 columns, cover the `[1024, 4096]` array: column `o` lies in tile `o / 512`. So after the run
the whole array is the layer's output of the arguments as launched.
-/

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.KernelIdeal.Value Idealize.ShloMosaic.ValueIdx
open Cert.KernelIdeal.Blocks Cert.KernelIdeal.Accum

variable (m : (ℓ : Loc nD τ sig) → Buf (Elt Ideal) ℓ) (ρ : Dev nD → PrngReg)

/-- What a write-back writes is the block of the layer's output at the point's tile. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  rw [flushed7]
  funext j
  obtain ⟨r, o, rfl⟩ : ∃ (r : Fin 1024) (o : Fin 512), j = ix2 r o := ⟨j 0, j 1, eq_ix2 j⟩
  show (outsAt0 m c t.val t.isLt).1 (ix2 r o) = result m c (((cfg0.win 7).blk t).view.emb (ix2 r o))
  rw [out_block_emb t r o]
  exact out_at_last m c t h7 r o

/-- An index of the output array is in point `t`'s block iff each coordinate is in the block's range on its axis. -/
theorem mem_block (t : Fin cfg0.N) (i : S1024x4096.Idx) :
    i ∈ ((cfg0.win 7).blk t).view.set
      ↔ ∀ a : Fin 2, win0_7.index t a * S1024x512.size a ≤ (i a).val ∧ (i a).val < win0_7.index t a * S1024x512.size a + S1024x512.size a := by
  show i ∈ ((View.whole main_v3).slice (win0_7.rect t)).set ↔ _
  rw [View.set_slice_whole, Rect.mem_set_unit]
  exact Iff.rfl

/-- Every index of the output array is in the block written back at its column's tile. -/
theorem covered (i : S1024x4096.Idx) :
    ∃ t : Fin cfg0.N, (cfg0.win 7).flush t = true ∧ i ∈ ((cfg0.win 7).blk t).view.set := by
  have hN : cfg0.N = 64 := N_0
  have hi0 : (i 0).val < 1024 := (i 0).isLt
  have hi1 : (i 1).val < 4096 := (i 1).isLt
  have hlt : 8 * ((i 1).val / 512) + 7 < cfg0.N := by omega
  have e := grid_facts (⟨8 * ((i 1).val / 512) + 7, hlt⟩ : Fin cfg0.N)
  have e0 : win0_7.index (⟨8 * ((i 1).val / 512) + 7, hlt⟩ : Fin cfg0.N) (0 : Fin 2) = 0 := by tauto
  have e1 : win0_7.index (⟨8 * ((i 1).val / 512) + 7, hlt⟩ : Fin cfg0.N) (1 : Fin 2) = (8 * ((i 1).val / 512) + 7) / 8 := by tauto
  refine ⟨⟨8 * ((i 1).val / 512) + 7, hlt⟩, (flush0_7 _).mpr (by show (8 * ((i 1).val / 512) + 7) % 8 = 7; omega), ?_⟩
  rw [mem_block]
  intro a
  match a with
  | ⟨0, _⟩ =>
    show win0_7.index _ (0 : Fin 2) * 1024 ≤ (i 0).val ∧ (i 0).val < win0_7.index _ (0 : Fin 2) * 1024 + 1024
    omega
  | ⟨1, _⟩ =>
    show win0_7.index _ (1 : Fin 2) * 512 ≤ (i 1).val ∧ (i 1).val < win0_7.index _ (1 : Fin 2) * 512 + 512
    omega

/-- After the run the output array is the layer's output. -/
theorem final (c : Dev nD) : (dats m 0 c).arrAt 7 cfg0.N = result m c :=
  (dats m 0 c).arrAt_eq_of_cover 7 (result m c) (flushed_eq m c) covered

/-- The kernel's run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Layer

end
-- ==== Proof.ReferenceLinear.lean ====
import proofs.«160291_j33492154974381_2_alg».proof.Proof.Gen.ReferenceIdeal.Read
import proofs.«160291_j33492154974381_2_alg».proof.Proof.SampledLinear

/-!
# The reference computes the sampled linear layer

The reference samples the whole weight matrix and the bias vector first, contracts the batch with the weight matrix over
the input features in one product, and adds the bias to every row. Read at an index `(b, o)` this is literally
`∑ i, x b i · W o i + β o`: the product reads its left operand at `(b, i)` and its right operand at `(o, i)`, and the two
broadcasts of the bias read it at `o`.
-/

noncomputable section

open scoped BigOperators

namespace Cert.ReferenceIdeal.RefValue

open Cert.ReferenceIdeal Cert.ReferenceIdeal.Read Idealize.ShloMosaic Idealize.ShloMosaic.ValueIdx Cert.SampledLinear

/-- The reference's result, as a function of its seven arguments, is the sampled linear layer's output array. -/
theorem result_eq_output (x0 : (⟨S1024x4096, .f32⟩ : BufTy).Contents (Elt Ideal))
    (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v13 (F := Ideal) x0 x1 x2 x3 x4 x5 x6 = output x0 x1 x2 x5 x3 x4 x6 := by
  funext j
  obtain ⟨b, o, rfl⟩ : ∃ (b : Fin 1024) (o : Fin 4096), j = ix2 b o := ⟨j 0, j 1, eq_ix2 j⟩
  have hl : ∀ k : Fin 4096, lidx_main_v10 (ix2 b o) k = ix2 b k := fun k => funext fun a => Fin.ext (by
    match a with
    | ⟨0, _⟩ => rfl
    | ⟨1, _⟩ => rfl)
  have hr : ∀ k : Fin 4096, ridx_main_v10 (ix2 b o) k = ix2 o k := fun k => funext fun a => Fin.ext (by
    match a with
    | ⟨0, _⟩ => rfl
    | ⟨1, _⟩ => rfl)
  have hb : idx_main_v11 (idx_main_v12 (ix2 b o)) = ix1 o := funext fun a => Fin.ext (by
    match a with
    | ⟨0, _⟩ => rfl)
  rw [val_main_v13_apply, val_main_v10_apply, val_main_v12_apply, val_main_v11_apply, hb]
  simp only [hl, hr, val_main_v9_apply, val_main_v8_apply, val_main_v5_apply, val_main_v3_apply, val_main_v4_apply,
    val_main_cst_0_apply, val_main_v7_apply, val_main_v6_apply, val_main_v2_apply, val_main_v0_apply, val_main_v1_apply,
    val_main_cst_apply, Ideal.addf_def, Ideal.mulf_def, Ideal.maximumf_def, Ideal.hostUnary_exp_def, Ideal.ofBits_def]
  rfl

end Cert.ReferenceIdeal.RefValue

end
-- ==== Proof.lean ====
/-
  A linear layer with sampled weights and bias, over a batch of 1024 rows: 4096 input features, 4096 output features.
  The sampled weight is `W o i = mean o i + noise o i · max (exp (logstd o i)) ε`, the sampled bias
  `β o = mean o + noise o · max (exp (logstd o)) ε` with the same floor `ε`, and the result is `∑ i, x b i · W o i + β o`.

  The reference samples the whole weight matrix, contracts the batch with it over the input features in one product and
  adds the bias row. The kernel walks an 8 × 8 grid — output-feature tiles of 512 by input-feature blocks of 512, the
  block innermost —, at each point sampling the point's [512, 512] tile of weights and adding the product of 512
  columns of the batch with it into a [1024, 512] accumulator that is zeroed at a tile's first block; at a tile's last
  block it samples the tile's piece of the bias and writes accumulator plus bias to the output block.

  On the extended reals the exponential, the maximum and the float literal `ε` are the same function and the same
  number on both sides, a change of float format is the identity, and the two programs differ only in how the sum over
  the 4096 input features is grouped: eight consecutive blocks of 512, started from zero, against one sum. Addition on
  the extended reals is commutative and associative, so the regrouping needs no entry to be finite and the precondition
  is never opened.

  The modules: SampledLinear (the function, and the regrouping of its contraction), ReferenceLinear (the reference's
  result is that function), BodyCases and PayloadReads (what the body leaves in the accumulator and the output block at
  a tile's first, middle and last points, and those terms at an index), BlockReads (the blocks a point is handed, read
  off the argument arrays), Accumulated (the accumulator after every point as a sum over the tile's points so far; the
  block written at the last one), KernelLinear (the written blocks cover the result array, which is therefore the
  function of the arguments). LibBlockedSum and LibTransposedProduct are general lemmas: a sum over blocks, and a product
  with the right factor stored one row per output column, read at an index.
-/
import proofs.«160291_j33492154974381_2_alg».proof.Defs
import proofs.«160291_j33492154974381_2_alg».proof.Proof.Gen.Kernel
import proofs.«160291_j33492154974381_2_alg».proof.Proof.Gen.Kernel.Skeleton
import proofs.«160291_j33492154974381_2_alg».proof.Proof.Gen.Kernel.Launch
import proofs.«160291_j33492154974381_2_alg».proof.Proof.Gen.Kernel.Points
import proofs.«160291_j33492154974381_2_alg».proof.Proof.Gen.Kernel.Frame
import proofs.«160291_j33492154974381_2_alg».proof.Proof.Gen.KernelIdeal
import proofs.«160291_j33492154974381_2_alg».proof.Proof.Gen.KernelIdeal.Skeleton
import proofs.«160291_j33492154974381_2_alg».proof.Proof.Gen.KernelIdeal.Launch
import proofs.«160291_j33492154974381_2_alg».proof.Proof.Gen.KernelIdeal.Points
import proofs.«160291_j33492154974381_2_alg».proof.Proof.Gen.KernelIdeal.Frame
import proofs.«160291_j33492154974381_2_alg».proof.Proof.Gen.ReferenceIdeal
import proofs.«160291_j33492154974381_2_alg».proof.Proof.Gen.Pre_finite_inputs
import proofs.«160291_j33492154974381_2_alg».proof.Proof.Gen.KernelIdeal.Value
import proofs.«160291_j33492154974381_2_alg».proof.Proof.Gen.ReferenceIdeal.Run
import proofs.«160291_j33492154974381_2_alg».proof.Proof.Gen.ReferenceIdeal.Read
import proofs.«160291_j33492154974381_2_alg».proof.Proof.KernelLinear
import proofs.«160291_j33492154974381_2_alg».proof.Proof.ReferenceLinear
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading on the extended reals. -/
theorem preserves : Cert.preserves_Kernel_KernelIdeal := trivial

/-- On the extended reals both result arrays are the sampled linear layer's output of arguments that agree. -/
theorem algebraic : Cert.algebraic_KernelIdeal_ReferenceIdeal := by
  intro m ρ m' ρ' _ hagree
  refine ⟨fun c => Cert.KernelIdeal.Accum.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.ReferenceIdeal.RefValue.result_eq_output, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
